-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S2048x4096 : Shape := ⟨2, ![2048, 4096]⟩
abbrev S1x4096 : Shape := ⟨2, ![1, 4096]⟩
abbrev S512x1024 : Shape := ⟨2, ![512, 1024]⟩
abbrev S512x2048 : Shape := ⟨2, ![512, 2048]⟩
abbrev S512x4096 : Shape := ⟨2, ![512, 4096]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S1024x4x1024, .f32⟩
  | .hbm, ⟨8, _⟩ => ⟨S1024x4096, .f32⟩
  | .hbm, ⟨9, _⟩ => ⟨S1024x4x1024, .f32⟩
  | .hbm, ⟨10, _⟩ => ⟨S1024x4096, .f32⟩
  | .hbm, ⟨11, _⟩ => ⟨S2048x4096, .f32⟩
  | .hbm, ⟨12, _⟩ => ⟨S2048x4096, .bf16⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S16384x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2048x4096, .bf16⟩
  | .local _ .vmem, ⟨7, _⟩ => ⟨S1x4096, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  concatenates_S1024x4096_S1024x4096_S2048x4096_d0 : Shape.Concatenates [S1024x4096, S1024x4096] S2048x4096 0
  bitsLt_bf16_f32 : FTy.bits .bf16 < FTy.bits .f32
  shapeCasts_S4x1024_S1x4096 : S4x1024.ShapeCasts S1x4096
  inb_S512x1024_S512x1024_0_0 : ∀ a, (![0, 0] : Fin 2 → Nat) a + S512x1024.size a ≤ S512x1024.size a
  h_S512x1024 : 0 < S512x1024.numel
  concatenates_S512x1024_S512x1024_S512x2048_d1 : Shape.Concatenates [S512x1024, S512x1024] S512x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x2048_S2048x4096_S512x4096_1_0_0_1_n_n_wf : DotDims.WF S512x2048 S2048x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x2048_S2048x4096_S512x4096_1_0_0_1_n_n : DotDims S512x2048 S2048x4096 S512x4096 where
  lhsContracting := [1]
  rhsContracting := [0]
  lhsNonContracting := [0]
  rhsNonContracting := [1]
  lhsBatch := []
  rhsBatch := []
  wf := dot_S512x2048_S2048x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S16384x4x1024, .f32⟩
  | .hbm, ⟨8, _⟩ => ⟨S1x4x1024, .f32⟩
  | .hbm, ⟨9, _⟩ => ⟨S16384x4x1024, .f32⟩
  | .hbm, ⟨10, _⟩ => ⟨S16384x4x1024, .f32⟩
  | .hbm, ⟨11, _⟩ => ⟨S16384x4x1024, .f32⟩
  | .hbm, ⟨12, _⟩ => ⟨S16384x4x1024, .f32⟩
  | .hbm, ⟨13, _⟩ => ⟨S1x4x1024, .f32⟩
  | .hbm, ⟨14, _⟩ => ⟨S16384x4x1024, .f32⟩
  | .hbm, ⟨15, _⟩ => ⟨S16384x4x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.CellSpec.lean ====
/-
  One step of an LSTM cell as plain mathematics on the extended reals, with no program in sight.

  For a batch row `b`, a gate `g` (forget, input, output, candidate, in that order) and a hidden unit `h`,
  the pre-activation is
      z b g h = ((Σₖ x b k · wi g h k + bi g h) + Σₖ h0 b k · wh g h k) + bh g h ,
  the new cell state is  c' b h = σ(z b 0 h) · c0 b h + σ(z b 1 h) · tanh(z b 3 h)  and the new hidden state is
  h' b h = σ(z b 2 h) · tanh(c' b h),  with σ x = 1 / (1 + e⁻ˣ).

  Two small facts join the two ways the programs spell this:
  * a sum over 2048 terms followed by the sum of two biases is the two half sums with one bias after each — only
    commutativity and associativity of addition, so it holds on the extended reals with no finiteness assumed;
  * the quotient of one by one plus the exponential of the negation is the logistic function, the float word
    `0x3F800000` being the number one.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- A batch of rows of 1024 features: the inputs, the hidden state, the cell state. -/
abbrev Rows : Type := (⟨2, ![16384, 1024]⟩ : Shape).Idx → EReal
/-- Four gates' weight matrices, indexed gate, hidden unit, feature. -/
abbrev Weights : Type := (⟨3, ![4, 1024, 1024]⟩ : Shape).Idx → EReal
/-- Four gates' biases, indexed gate, hidden unit. -/
abbrev Biases : Type := (⟨2, ![4, 1024]⟩ : Shape).Idx → EReal

/-- The pre-activation of gate `g` at hidden unit `h` for batch row `b`: the input's product with the gate's input
    weights plus its bias, then the hidden state's product with the gate's recurrent weights, then that bias. -/
def pre (x h0 : Rows) (wi : Weights) (bi : Biases) (wh : Weights) (bh : Biases) (b : Fin 16384) (g : Fin 4) (h : Fin 1024) : EReal :=
  (((∑ k : Fin 1024, x (ix2 b k) * wi (ix3 g h k)) + bi (ix2 g h)) + ∑ k : Fin 1024, h0 (ix2 b k) * wh (ix3 g h k)) + bh (ix2 g h)

/-- The new cell state: forget gate times old cell state plus input gate times candidate. -/
def cellAt (x h0 c0 : Rows) (wi : Weights) (bi : Biases) (wh : Weights) (bh : Biases) (b : Fin 16384) (h : Fin 1024) : EReal :=
  Ideal.logistic (pre x h0 wi bi wh bh b 0 h) * c0 (ix2 b h)
    + Ideal.logistic (pre x h0 wi bi wh bh b 1 h) * Ideal.tanh (pre x h0 wi bi wh bh b 3 h)

/-- The new hidden state: output gate times the hyperbolic tangent of the new cell state. -/
def hiddenAt (x h0 c0 : Rows) (wi : Weights) (bi : Biases) (wh : Weights) (bh : Biases) (b : Fin 16384) (h : Fin 1024) : EReal :=
  Ideal.logistic (pre x h0 wi bi wh bh b 2 h) * Ideal.tanh (cellAt x h0 c0 wi bi wh bh b h)

/-- The new cell state as a whole array. -/
def cellArr (x h0 c0 : Rows) (wi : Weights) (bi : Biases) (wh : Weights) (bh : Biases) : Rows :=
  fun i => cellAt x h0 c0 wi bi wh bh (i 0) (i 1)

/-- The new hidden state as a whole array. -/
def hiddenArr (x h0 c0 : Rows) (wi : Weights) (bi : Biases) (wh : Weights) (bh : Biases) : Rows :=
  fun i => hiddenAt x h0 c0 wi bi wh bh (i 0) (i 1)

/-- A sum over 2048 terms followed by the sum of two biases is the first half sum, the first bias, the second half
    sum and the second bias, added in that order: addition is commutative and associative. -/
theorem split_sum_regroup {M : Type*} [AddCommMonoid M] (f : Fin 2048 → M) (b₁ b₂ : M) :
    (∑ k, f k) + (b₁ + b₂)
      = (((∑ k : Fin 1024, f ⟨k.val, by omega⟩) + b₁) + ∑ k : Fin 1024, f ⟨1024 + k.val, by omega⟩) + b₂ := by
  have h : (∑ k, f k) = (∑ k : Fin 1024, f ⟨k.val, by omega⟩) + ∑ k : Fin 1024, f ⟨1024 + k.val, by omega⟩ :=
    Fin.sum_univ_add (a := 1024) (b := 1024) f
  rw [h]
  abel

/-- The float word `0x3F800000` is the number one. -/
theorem one_word : Ideal.ofBits .f32 0x3F800000#32 = 1 := by
  simp [Ideal.ofBits, Ideal.ieee, -EReal.coe_mul]; norm_num

/-- One divided by one plus the exponential of `-z`, in the host's operations and with the ones as float words, is the
    logistic function of `z`, at every extended real. -/
theorem host_logistic (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [one_word]
  rfl

end Cert.Lstm

end
-- ==== Proof.RefIsSpec.lean ====
/-
  The reference program computes the LSTM cell step of `Cert.Lstm`: its two results, read one host operation at a
  time, are the new hidden state and the new cell state as whole arrays.

  Reading the reference at row `b`, gate `g`, unit `h`: the two contractions are the sums over the feature axis, each
  bias is repeated down the batch, and the three additions are made in the order the specification writes them, so the
  pre-activation is `pre` on the nose. A gate's slice of the pre-activations followed by the reshape that drops the
  unit gate axis reads entry `(b, g, h)`; the sigmoid is spelt one over one plus the exponential of the negation.
-/
import proofs.«139506_j19885698580623_2_alg».proof.Proof.Gen.ReferenceIdeal.Read
import proofs.«139506_j19885698580623_2_alg».proof.Proof.CellSpec

noncomputable section

namespace Cert.Lstm.Ref

open Cert.ReferenceIdeal Cert.ReferenceIdeal.Gen Cert.ReferenceIdeal.Read Idealize.ShloMosaic Idealize.ShloMosaic.ValueIdx
open Cert.Lstm

variable (x0 x1 x2 : (⟨S16384x1024, .f32⟩ : BufTy).Contents (Elt Ideal)) (x3 : (⟨S4x1024x1024, .f32⟩ : BufTy).Contents (Elt Ideal))
  (x4 : (⟨S4x1024, .f32⟩ : BufTy).Contents (Elt Ideal)) (x5 : (⟨S4x1024x1024, .f32⟩ : BufTy).Contents (Elt Ideal))
  (x6 : (⟨S4x1024, .f32⟩ : BufTy).Contents (Elt Ideal))

/-- The four-gate array of pre-activations at `(b, g, h)` is the specification's pre-activation. -/
theorem pre_eq (b : Fin 16384) (g : Fin 4) (h : Fin 1024) :
    val_main_v8 (F := Ideal) x0 x1 x3 x4 x5 x6 (ix3 b g h) = pre x0 x1 x3 x4 x5 x6 b g h := by
  have el0 : ∀ k : Fin 1024, lidx_main_v0 (ix3 b g h) k = ix2 b k := fun k =>
    funext fun a => Fin.ext (by match a with | ⟨0, _⟩ => rfl | ⟨1, _⟩ => rfl)
  have er0 : ∀ k : Fin 1024, ridx_main_v0 (ix3 b g h) k = ix3 g h k := fun k =>
    funext fun a => Fin.ext (by match a with | ⟨0, _⟩ => rfl | ⟨1, _⟩ => rfl | ⟨2, _⟩ => rfl)
  have el4 : ∀ k : Fin 1024, lidx_main_v4 (ix3 b g h) k = ix2 b k := fun k =>
    funext fun a => Fin.ext (by match a with | ⟨0, _⟩ => rfl | ⟨1, _⟩ => rfl)
  have er4 : ∀ k : Fin 1024, ridx_main_v4 (ix3 b g h) k = ix3 g h k := fun k =>
    funext fun a => Fin.ext (by match a with | ⟨0, _⟩ => rfl | ⟨1, _⟩ => rfl | ⟨2, _⟩ => rfl)
  have eb1 : idx_main_v1 (idx_main_v2 (ix3 b g h)) = ix2 g h :=
    funext fun a => Fin.ext (by match a with | ⟨0, _⟩ => rfl | ⟨1, _⟩ => rfl)
  have eb6 : idx_main_v6 (idx_main_v7 (ix3 b g h)) = ix2 g h :=
    funext fun a => Fin.ext (by match a with | ⟨0, _⟩ => rfl | ⟨1, _⟩ => rfl)
  rw [val_main_v8_apply, val_main_v5_apply, val_main_v3_apply, val_main_v0_apply, val_main_v4_apply,
    val_main_v2_apply, val_main_v1_apply, val_main_v7_apply, val_main_v6_apply, eb1, eb6]
  simp only [el0, er0, el4, er4]
  rfl

/-- Gate `g`'s slice of the pre-activations with the unit gate axis dropped, read at `(b, h)`, is entry `(b, g, h)`:
    here for the forget gate. -/
theorem gate0 (b : Fin 16384) (h : Fin 1024) :
    val_main_v10 (F := Ideal) x0 x1 x3 x4 x5 x6 (ix2 b h) = pre x0 x1 x3 x4 x5 x6 b 0 h := by
  rw [val_main_v10_apply, val_main_v9_apply,
    show idx_main_v9 (idx_main_v10 (ix2 b h)) = ix3 b (0 : Fin 4) h from
      funext fun a => Fin.ext (by
        have hb := b.isLt; have hh := h.isLt
        match a with
        | ⟨0, _⟩ => show (b.val * 1024 + h.val) / 1024 = b.val; omega
        | ⟨1, _⟩ => rfl
        | ⟨2, _⟩ => show (b.val * 1024 + h.val) % 1024 = h.val; omega)]
  exact pre_eq x0 x1 x3 x4 x5 x6 b 0 h

/-- The input gate's slice. -/
theorem gate1 (b : Fin 16384) (h : Fin 1024) :
    val_main_v18 (F := Ideal) x0 x1 x3 x4 x5 x6 (ix2 b h) = pre x0 x1 x3 x4 x5 x6 b 1 h := by
  rw [val_main_v18_apply, val_main_v17_apply,
    show idx_main_v17 (idx_main_v18 (ix2 b h)) = ix3 b (1 : Fin 4) h from
      funext fun a => Fin.ext (by
        have hb := b.isLt; have hh := h.isLt
        match a with
        | ⟨0, _⟩ => show (b.val * 1024 + h.val) / 1024 = b.val; omega
        | ⟨1, _⟩ => rfl
        | ⟨2, _⟩ => show (b.val * 1024 + h.val) % 1024 = h.val; omega)]
  exact pre_eq x0 x1 x3 x4 x5 x6 b 1 h

/-- The output gate's slice. -/
theorem gate2 (b : Fin 16384) (h : Fin 1024) :
    val_main_v26 (F := Ideal) x0 x1 x3 x4 x5 x6 (ix2 b h) = pre x0 x1 x3 x4 x5 x6 b 2 h := by
  rw [val_main_v26_apply, val_main_v25_apply,
    show idx_main_v25 (idx_main_v26 (ix2 b h)) = ix3 b (2 : Fin 4) h from
      funext fun a => Fin.ext (by
        have hb := b.isLt; have hh := h.isLt
        match a with
        | ⟨0, _⟩ => show (b.val * 1024 + h.val) / 1024 = b.val; omega
        | ⟨1, _⟩ => rfl
        | ⟨2, _⟩ => show (b.val * 1024 + h.val) % 1024 = h.val; omega)]
  exact pre_eq x0 x1 x3 x4 x5 x6 b 2 h

/-- The candidate's slice. -/
theorem gate3 (b : Fin 16384) (h : Fin 1024) :
    val_main_v34 (F := Ideal) x0 x1 x3 x4 x5 x6 (ix2 b h) = pre x0 x1 x3 x4 x5 x6 b 3 h := by
  rw [val_main_v34_apply, val_main_v33_apply,
    show idx_main_v33 (idx_main_v34 (ix2 b h)) = ix3 b (3 : Fin 4) h from
      funext fun a => Fin.ext (by
        have hb := b.isLt; have hh := h.isLt
        match a with
        | ⟨0, _⟩ => show (b.val * 1024 + h.val) / 1024 = b.val; omega
        | ⟨1, _⟩ => rfl
        | ⟨2, _⟩ => show (b.val * 1024 + h.val) % 1024 = h.val; omega)]
  exact pre_eq x0 x1 x3 x4 x5 x6 b 3 h

/-- The reference's second result, read at `(b, h)`, is the new cell state. -/
theorem cell_at (b : Fin 16384) (h : Fin 1024) :
    val_main_v38 (F := Ideal) x0 x1 x2 x3 x4 x5 x6 (ix2 b h) = cellAt x0 x1 x2 x3 x4 x5 x6 b h := by
  rw [val_main_v38_apply, val_main_v36_apply, val_main_v37_apply, val_main_v16_apply, val_main_v24_apply,
    val_main_v35_apply, val_main_v14_apply, val_main_v22_apply, val_main_v12_apply, val_main_v20_apply,
    val_main_v11_apply, val_main_v19_apply, val_main_v13_apply, val_main_v15_apply, val_main_v21_apply,
    val_main_v23_apply, val_main_cst_apply, val_main_cst_0_apply, val_main_cst_1_apply, val_main_cst_2_apply,
    gate0, gate1, gate3, host_logistic, host_logistic]
  rfl

/-- The reference's first result, read at `(b, h)`, is the new hidden state. -/
theorem hidden_at (b : Fin 16384) (h : Fin 1024) :
    val_main_v40 (F := Ideal) x0 x1 x2 x3 x4 x5 x6 (ix2 b h) = hiddenAt x0 x1 x2 x3 x4 x5 x6 b h := by
  rw [val_main_v40_apply, val_main_v39_apply, cell_at, val_main_v32_apply, val_main_v30_apply, val_main_v28_apply,
    val_main_v27_apply, val_main_v29_apply, val_main_v31_apply, val_main_cst_3_apply, val_main_cst_4_apply,
    gate2, host_logistic]
  rfl

/-- The reference's second result is the new cell state, as whole arrays. -/
theorem cell_eq : val_main_v38 (F := Ideal) x0 x1 x2 x3 x4 x5 x6 = cellArr x0 x1 x2 x3 x4 x5 x6 := by
  funext i
  rw [eq_ix2 i]
  exact cell_at x0 x1 x2 x3 x4 x5 x6 (i 0) (i 1)

/-- The reference's first result is the new hidden state, as whole arrays. -/
theorem hidden_eq : val_main_v40 (F := Ideal) x0 x1 x2 x3 x4 x5 x6 = hiddenArr x0 x1 x2 x3 x4 x5 x6 := by
  funext i
  rw [eq_ix2 i]
  exact hidden_at x0 x1 x2 x3 x4 x5 x6 (i 0) (i 1)

end Cert.Lstm.Ref

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibJoinCols.lean ====
/-
  Two matrices with the same number of rows laid side by side, read at an entry. If `x` is n × a and `y` is n × b,
  their concatenation along the column axis is n × c (the shape record's side condition makes c = a + b); its entry
  (p, k) is `x (p, k)` when k < a and `y (p, k - a)` otherwise.
-/
import Idealize.ShloMosaic.Lib.ValueIdx
import Idealize.ShloMosaic.Lib.Pipeline.Value

noncomputable section

namespace Cert.Lib.JoinCols

open Idealize.ShloMosaic Idealize.ShloMosaic.ValueIdx

variable {α : Type}

/-- A column position inside the first matrix reads the first matrix there. -/
theorem concat_cols_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : k.val < a) :
    concatenate (⟨2, ![n, c]⟩ : Shape) (1 : Fin 2) [⟨⟨2, ![n, a]⟩, x⟩, ⟨⟨2, ![n, b]⟩, y⟩] h (ix2 p k) = x (ix2 p ⟨k.val, hk⟩) :=
  concatenate_pair_apply_left (1 : Fin 2) x y h (ix2 p k) rfl (ix2 p ⟨k.val, hk⟩) (fun d => by
    match d with
    | ⟨0, _⟩ => rfl
    | ⟨1, _⟩ => rfl)

/-- A column position past the first matrix reads the second matrix, the first one's width less. -/
theorem concat_cols_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : a ≤ k.val) (hb : k.val - a < b) :
    concatenate (⟨2, ![n, c]⟩ : Shape) (1 : Fin 2) [⟨⟨2, ![n, a]⟩, x⟩, ⟨⟨2, ![n, b]⟩, y⟩] h (ix2 p k) = y (ix2 p ⟨k.val - a, hb⟩) :=
  concatenate_pair_apply_right (1 : Fin 2) x y h (ix2 p k) rfl rfl (ix2 p ⟨k.val - a, hb⟩) (fun d hd => by
    match d with
    | ⟨0, _⟩ => rfl
    | ⟨1, _⟩ => exact absurd rfl hd) (by show k.val - a + a = k.val; omega)

end Cert.Lib.JoinCols

end
-- ==== Proof.KernelEntry.lean ====
/-
  The kernel body's pre-activation block, read at an entry.

  The body joins a 512×1024 block of inputs and a 512×1024 block of hidden states along the columns into a 512×2048
  block, multiplies it by the 2048×4096 stacked weight block into a zero accumulator, and adds a 1×4096 bias row
  repeated down the 512 rows. At exact arithmetic a change of float format is the identity, so entry (p, q) of the
  result is  Σ_{k<2048} joined(p, k) · W(k, q) + bias(0, q).  Splitting the sum at 1024 — columns below 1024 of the
  joined block are the input block's, the others the hidden block's — and writing the bias as the sum of two, this is
  the input product plus the first bias plus the hidden product plus the second bias.
-/
import proofs.«139506_j19885698580623_2_alg».proof.Proof.Gen.KernelIdeal.Skeleton
import proofs.«139506_j19885698580623_2_alg».proof.Proof.CellSpec
import proofs.«139506_j19885698580623_2_alg».proof.Proof.LibDotEntry
import proofs.«139506_j19885698580623_2_alg».proof.Proof.LibMatDims
import proofs.«139506_j19885698580623_2_alg».proof.Proof.LibJoinCols
import Idealize.ShloMosaic.Lib.Pipeline.Value

noncomputable section

namespace Cert.Lstm.Kern

open Cert.KernelIdeal Cert.KernelIdeal.Gen Idealize.ShloMosaic Idealize.ShloMosaic.ValueIdx
open Cert.Lstm

local notation "DD" => dot_S512x2048_S2048x4096_S512x4096_1_0_0_1_n_n

/-- The body's pre-activation block at entry (p, q): the joined row p times column q of the weight block, plus the
    bias row at q. -/
theorem pay1_at (P0 P1 : Vec Ideal S512x1024 .f32) (P2 : Vec Ideal S2048x4096 .bf16) (P3 : Vec Ideal S1x4096 .f32)
    (p : Fin 512) (q : Fin 4096) :
    k0_pay1 (F := Ideal) P0 P1 P2 P3 (ix2 p q)
      = (∑ k : Fin 2048,
          concatenate S512x2048 1 [⟨S512x1024, (P0 : S512x1024.Idx → EReal)⟩, ⟨S512x1024, (P1 : S512x1024.Idx → EReal)⟩]
            concatenates_S512x1024_S512x1024_S512x2048_d1 (ix2 p k) * P2 (ix2 k q))
        + P3 (ix2 (0 : Fin 1) q) := by
  have hc : (DD).lhsContracting = [1] := rfl
  have hm := Cert.Lib.DotEntry.matmul_zero_ix2 (φ₁ := .bf16) (φ₂ := .bf16) DD
    (Cert.Lib.MatDims.contr_rank DD hc) (Cert.Lib.MatDims.contr_size DD hc)
    (Cert.Lib.MatDims.lhs_row DD rfl rfl) (Cert.Lib.MatDims.lhs_col DD hc)
    (Cert.Lib.MatDims.rhs_row DD hc rfl) (Cert.Lib.MatDims.rhs_col DD rfl rfl rfl rfl)
    (concatenate S512x2048 1 [⟨S512x1024, (P0 : S512x1024.Idx → EReal)⟩, ⟨S512x1024, (P1 : S512x1024.Idx → EReal)⟩]
      concatenates_S512x1024_S512x1024_S512x2048_d1) P2 p q
  have hb : broadcastTo S512x4096 (P3 : S1x4096.Idx → EReal) broadcasts_S1x4096_S512x4096 (ix2 p q) = P3 (ix2 (0 : Fin 1) q) :=
    broadcastTo_apply (P3 : S1x4096.Idx → EReal) broadcasts_S1x4096_S512x4096 (ix2 p q) (ix2 (0 : Fin 1) q) (fun a => by
      match a with
      | ⟨0, _⟩ => show (0 : Nat) = if (1 : Nat) = 1 then 0 else p.val; rw [if_pos rfl]
      | ⟨1, _⟩ => show q.val = if (4096 : Nat) = 1 then 0 else q.val; rw [if_neg (by decide)])
  unfold k0_pay1
  rw [shapeCast_self, shapeCast_self]
  exact congrArg₂ (· + ·) hm hb

/-- The same entry with the sum split at 1024 and every factor named: row p of the input block is `xr`, row p of the
    hidden block is `hr`, column q of the weight block is `wa` on its first 1024 rows and `wb` on the others, and the
    bias row at q is `ba + bb`. -/
theorem pay1_eq (P0 P1 : Vec Ideal S512x1024 .f32) (P2 : Vec Ideal S2048x4096 .bf16) (P3 : Vec Ideal S1x4096 .f32)
    (p : Fin 512) (q : Fin 4096) (xr hr wa wb : Fin 1024 → EReal) (ba bb : EReal)
    (h0 : ∀ k : Fin 1024, P0 (ix2 p k) = xr k) (h1 : ∀ k : Fin 1024, P1 (ix2 p k) = hr k)
    (h2a : ∀ k : Fin 1024, P2 (ix2 (⟨k.val, by omega⟩ : Fin 2048) q) = wa k)
    (h2b : ∀ k : Fin 1024, P2 (ix2 (⟨1024 + k.val, by omega⟩ : Fin 2048) q) = wb k)
    (h3 : P3 (ix2 (0 : Fin 1) q) = ba + bb) :
    k0_pay1 (F := Ideal) P0 P1 P2 P3 (ix2 p q)
      = (((∑ k : Fin 1024, xr k * wa k) + ba) + ∑ k : Fin 1024, hr k * wb k) + bb := by
  rw [pay1_at, h3, split_sum_regroup]
  have ea : ∀ k : Fin 1024,
      concatenate S512x2048 1 [⟨S512x1024, (P0 : S512x1024.Idx → EReal)⟩, ⟨S512x1024, (P1 : S512x1024.Idx → EReal)⟩]
        concatenates_S512x1024_S512x1024_S512x2048_d1 (ix2 p (⟨k.val, by omega⟩ : Fin 2048)) = xr k := fun k =>
    (Cert.Lib.JoinCols.concat_cols_left (P0 : S512x1024.Idx → EReal) (P1 : S512x1024.Idx → EReal)
      concatenates_S512x1024_S512x1024_S512x2048_d1 p (⟨k.val, by omega⟩ : Fin 2048) k.isLt).trans (h0 k)
  have eb : ∀ k : Fin 1024,
      concatenate S512x2048 1 [⟨S512x1024, (P0 : S512x1024.Idx → EReal)⟩, ⟨S512x1024, (P1 : S512x1024.Idx → EReal)⟩]
        concatenates_S512x1024_S512x1024_S512x2048_d1 (ix2 p (⟨1024 + k.val, by omega⟩ : Fin 2048)) = hr k := fun k =>
    (Cert.Lib.JoinCols.concat_cols_right (P0 : S512x1024.Idx → EReal) (P1 : S512x1024.Idx → EReal)
      concatenates_S512x1024_S512x1024_S512x2048_d1 p (⟨1024 + k.val, by omega⟩ : Fin 2048)
      (by show 1024 ≤ 1024 + k.val; omega) (by show 1024 + k.val - 1024 < 1024; omega)).trans
      ((congrArg (fun j : Fin 1024 => P1 (ix2 p j)) (Fin.ext (by show 1024 + k.val - 1024 = k.val; omega))).trans (h1 k))
  simp only [ea, eb, h2a, h2b]

end Cert.Lstm.Kern

end
-- ==== Proof.LibJoinRows.lean ====
/-
  Two matrices with the same number of columns stacked one above the other, read at an entry. If `x` is a × n and `y`
  is b × n, their concatenation along the row axis is c × n (the shape record's side condition makes c = a + b); its
  entry (k, q) is `x (k, q)` when k < a and `y (k - a, q)` otherwise.
-/
import Idealize.ShloMosaic.Lib.ValueIdx
import Idealize.ShloMosaic.Lib.Pipeline.Value

noncomputable section

namespace Cert.Lib.JoinRows

open Idealize.ShloMosaic Idealize.ShloMosaic.ValueIdx

variable {α : Type}

/-- A row position inside the upper matrix reads the upper matrix there. -/
theorem concat_rows_upper {a b c n : Nat} (x : (⟨2, ![a, n]⟩ : Shape).Idx → α) (y : (⟨2, ![b, n]⟩ : Shape).Idx → α)
    (h : Shape.Concatenates [(⟨2, ![a, n]⟩ : Shape), ⟨2, ![b, n]⟩] ⟨2, ![c, n]⟩ (0 : Fin 2))
    (k : Fin c) (q : Fin n) (hk : k.val < a) :
    concatenate (⟨2, ![c, n]⟩ : Shape) (0 : Fin 2) [⟨⟨2, ![a, n]⟩, x⟩, ⟨⟨2, ![b, n]⟩, y⟩] h (ix2 k q) = x (ix2 ⟨k.val, hk⟩ q) :=
  concatenate_pair_apply_left (0 : Fin 2) x y h (ix2 k q) rfl (ix2 ⟨k.val, hk⟩ q) (fun d => by
    match d with
    | ⟨0, _⟩ => rfl
    | ⟨1, _⟩ => rfl)

/-- A row position past the upper matrix reads the lower matrix, the upper one's height less. -/
theorem concat_rows_lower {a b c n : Nat} (x : (⟨2, ![a, n]⟩ : Shape).Idx → α) (y : (⟨2, ![b, n]⟩ : Shape).Idx → α)
    (h : Shape.Concatenates [(⟨2, ![a, n]⟩ : Shape), ⟨2, ![b, n]⟩] ⟨2, ![c, n]⟩ (0 : Fin 2))
    (k : Fin c) (q : Fin n) (hk : a ≤ k.val) (hb : k.val - a < b) :
    concatenate (⟨2, ![c, n]⟩ : Shape) (0 : Fin 2) [⟨⟨2, ![a, n]⟩, x⟩, ⟨⟨2, ![b, n]⟩, y⟩] h (ix2 k q) = y (ix2 ⟨k.val - a, hb⟩ q) :=
  concatenate_pair_apply_right (0 : Fin 2) x y h (ix2 k q) rfl rfl (ix2 ⟨k.val - a, hb⟩ q) (fun d hd => by
    match d with
    | ⟨0, _⟩ => exact absurd rfl hd
    | ⟨1, _⟩ => rfl) (by show k.val - a + a = k.val; omega)

end Cert.Lib.JoinRows

end
-- ==== Proof.HostPrep.lean ====
/-
  What the kernel's two prepared operands hold when the pipelined region starts.

  Before the region the program transposes each gate-weight array [gate, unit, feature] to [feature, gate, unit],
  merges the last two axes into one of 4096 columns (column g·1024 + h is gate g, unit h), and stacks the input
  weights above the recurrent weights: row k < 1024 of the stack, column g·1024 + h, is `wi g h k`, and row
  1024 + k is `wh g h k`. The two bias arrays are flattened the same way into rows of 4096 and added: column
  g·1024 + h of the bias row is `bi g h + bh g h`. (The stack is also changed to a narrower float format, which at
  exact arithmetic is the identity.)
-/
import proofs.«139506_j19885698580623_2_alg».proof.Proof.Gen.KernelIdeal.Frame
import proofs.«139506_j19885698580623_2_alg».proof.Proof.LibJoinRows
import Idealize.ShloMosaic.Lib.StableHlo.Run
import Idealize.ShloMosaic.Lib.Pipeline.Value
import Idealize.ShloMosaic.PureOps.Ideal

noncomputable section

namespace Cert.Lstm.Host

open Cert.KernelIdeal Cert.KernelIdeal.Gen Idealize.ShloMosaic Idealize.ShloMosaic.TcCoe Idealize.SL.Sem
open Idealize.ShloMosaic.StableHlo Idealize.ShloMosaic.ValueIdx

/-- A gate-weight array transposed to [feature, gate, unit] and flattened to 4096 columns, read at row k and column
    q = g·1024 + h, is the array at (g, h, k). -/
theorem flat_weights_at (A : S4x1024x1024.Idx → EReal) (k : Fin 1024) (g : Fin 4) (h : Fin 1024) (q : Fin 4096)
    (hq : q.val = g.val * 1024 + h.val) :
    shapeCast S1024x4096 (transpose S1024x4x1024 [2, 0, 1] A transposes_S4x1024x1024_S1024x4x1024_2_0_1)
        shapeCasts_S1024x4x1024_S1024x4096 (ix2 k q) = A (ix3 g h k) := by
  refine (shapeCast_apply _ shapeCasts_S1024x4x1024_S1024x4096 (ix2 k q) (ix3 k g h) ?_).trans ?_
  · rw [Shape.rowMajor_val_three, Shape.rowMajor_val_two]
    show (k.val * 4 + g.val) * 1024 + h.val = k.val * 4096 + q.val
    omega
  · exact transpose_apply [2, 0, 1] A transposes_S4x1024x1024_S1024x4x1024_2_0_1 (ix3 k g h) (ix3 g h k) (fun b => by
      match b with
      | ⟨0, _⟩ => rfl
      | ⟨1, _⟩ => rfl
      | ⟨2, _⟩ => rfl)

/-- A bias array flattened to one row of 4096, read at column q = g·1024 + h, is the array at (g, h). -/
theorem flat_bias_at (B : S4x1024.Idx → EReal) (g : Fin 4) (h : Fin 1024) (q : Fin 4096)
    (hq : q.val = g.val * 1024 + h.val) :
    shapeCast S1x4096 B shapeCasts_S4x1024_S1x4096 (ix2 (0 : Fin 1) q) = B (ix2 g h) := by
  refine shapeCast_apply B shapeCasts_S4x1024_S1x4096 (ix2 (0 : Fin 1) q) (ix2 g h) ?_
  rw [Shape.rowMajor_val_two, Shape.rowMajor_val_two]
  show g.val * 1024 + h.val = 0 * 4096 + q.val
  omega

variable (m : (ℓ : Loc nD τ sig) → Buf (Elt Ideal) ℓ)

/-- The stacked weights as the region finds them: the two flattened transposes, one above the other. -/
theorem stack_eq (c : Dev nD) :
    (V m c main_v5 : S2048x4096.Idx → EReal)
      = concatenate S2048x4096 0
          [⟨S1024x4096, shapeCast S1024x4096 (transpose S1024x4x1024 [2, 0, 1]
              (m ((c : Thread nD τ).loc main_arg3) : S4x1024x1024.Idx → EReal) transposes_S4x1024x1024_S1024x4x1024_2_0_1)
              shapeCasts_S1024x4x1024_S1024x4096⟩,
           ⟨S1024x4096, shapeCast S1024x4096 (transpose S1024x4x1024 [2, 0, 1]
              (m ((c : Thread nD τ).loc main_arg5) : S4x1024x1024.Idx → EReal) transposes_S4x1024x1024_S1024x4x1024_2_0_1)
              shapeCasts_S1024x4x1024_S1024x4096⟩]
          concatenates_S1024x4096_S1024x4096_S2048x4096_d0 := by
  dsimp only [Gen.V, Gen.hostOps0]
  after_results
  rfl

/-- The bias row as the region finds it: the two flattened bias arrays added. -/
theorem bias_eq (c : Dev nD) :
    (V m c main_v8 : S1x4096.Idx → EReal)
      = addf (F := Ideal) (φ := .f32)
          (shapeCast S1x4096 (m ((c : Thread nD τ).loc main_arg4) : S4x1024.Idx → EReal) shapeCasts_S4x1024_S1x4096)
          (shapeCast S1x4096 (m ((c : Thread nD τ).loc main_arg6) : S4x1024.Idx → EReal) shapeCasts_S4x1024_S1x4096) := by
  dsimp only [Gen.V, Gen.hostOps0]
  after_results
  rfl

/-- Row k < 1024 of the stack at column g·1024 + h is the input weight of gate g, unit h, feature k. -/
theorem stack_upper (c : Dev nD) (k : Fin 1024) (g : Fin 4) (h : Fin 1024) (q : Fin 4096) (hq : q.val = g.val * 1024 + h.val) :
    (V m c main_v5 : S2048x4096.Idx → EReal) (ix2 (⟨k.val, by omega⟩ : Fin 2048) q)
      = m ((c : Thread nD τ).loc main_arg3) (ix3 g h k) := by
  rw [stack_eq]
  refine (Cert.Lib.JoinRows.concat_rows_upper _ _ concatenates_S1024x4096_S1024x4096_S2048x4096_d0
    (⟨k.val, by omega⟩ : Fin 2048) q k.isLt).trans ?_
  exact flat_weights_at _ k g h q hq

/-- Row 1024 + k of the stack at column g·1024 + h is the recurrent weight of gate g, unit h, feature k. -/
theorem stack_lower (c : Dev nD) (k : Fin 1024) (g : Fin 4) (h : Fin 1024) (q : Fin 4096) (hq : q.val = g.val * 1024 + h.val) :
    (V m c main_v5 : S2048x4096.Idx → EReal) (ix2 (⟨1024 + k.val, by omega⟩ : Fin 2048) q)
      = m ((c : Thread nD τ).loc main_arg5) (ix3 g h k) := by
  rw [stack_eq]
  refine (Cert.Lib.JoinRows.concat_rows_lower _ _ concatenates_S1024x4096_S1024x4096_S2048x4096_d0
    (⟨1024 + k.val, by omega⟩ : Fin 2048) q (by show 1024 ≤ 1024 + k.val; omega)
    (by show 1024 + k.val - 1024 < 1024; omega)).trans ?_
  have e : (⟨1024 + k.val - 1024, by omega⟩ : Fin 1024) = k := Fin.ext (by show 1024 + k.val - 1024 = k.val; omega)
  rw [e]
  exact flat_weights_at _ k g h q hq

/-- The bias row at column g·1024 + h is the sum of the two biases of gate g, unit h. -/
theorem bias_at (c : Dev nD) (g : Fin 4) (h : Fin 1024) (q : Fin 4096) (hq : q.val = g.val * 1024 + h.val) :
    (V m c main_v8 : S1x4096.Idx → EReal) (ix2 (0 : Fin 1) q)
      = HAdd.hAdd (α := EReal) (β := EReal) (γ := EReal) (m ((c : Thread nD τ).loc main_arg4) (ix2 g h))
          (m ((c : Thread nD τ).loc main_arg6) (ix2 g h)) := by
  rw [bias_eq]
  show shapeCast S1x4096 _ shapeCasts_S4x1024_S1x4096 (ix2 (0 : Fin 1) q)
      + shapeCast S1x4096 _ shapeCasts_S4x1024_S1x4096 (ix2 (0 : Fin 1) q) = _
  rw [flat_bias_at _ g h q hq, flat_bias_at _ g h q hq]

end Cert.Lstm.Host

end
-- ==== Proof.GateEntry.lean ====
/-
  The kernel body's pre-activation at a block entry is the specification's pre-activation.

  The grid has 32 points; at point t the input, hidden-state and cell-state windows hold rows 512·t … 512·t + 511 of
  their arrays (all 1024 columns), while the stacked-weight and bias windows hold their whole arrays at every point.
  So row p of the input block is row 512·t + p of the inputs, column q = g·1024 + h of the weight block is the input
  weights of gate g, unit h on its first 1024 rows and the recurrent weights on the others, and the bias row at q is
  the sum of the two biases: the body's pre-activation at (p, q) is `pre` at batch row 512·t + p, gate g, unit h.
-/
import proofs.«139506_j19885698580623_2_alg».proof.Proof.Gen.KernelIdeal.Value
import proofs.«139506_j19885698580623_2_alg».proof.Proof.KernelEntry
import proofs.«139506_j19885698580623_2_alg».proof.Proof.HostPrep

noncomputable section

namespace Cert.Lstm.Blocks

open Cert.KernelIdeal Cert.KernelIdeal.Gen Idealize.ShloMosaic Idealize.ShloMosaic.TcCoe Idealize.SL.Sem
open Idealize.ShloMosaic.ValueIdx Cert.Lstm

variable (m : (ℓ : Loc nD τ sig) → Buf (Elt Ideal) ℓ)

/-- The printed index maps, decided over the 32 grid points: the three batch windows and the two output windows are
    at block row t, column 0; the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of the input window's block at point t is row 512·t + p of the inputs. -/
theorem in_block (c : Dev nD) (t : Fin cfg0.N) (p : Fin 512) (b : Fin 16384) (hb : b.val = t.val * 512 + p.val) (k : Fin 1024) :
    iblk m c 0 t (ix2 p k) = m ((c : Thread nD τ).loc main_arg0) (ix2 b k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = b.val; omega
  | ⟨1, _⟩ => show win0_0.index t (1 : Fin 2) * 1024 + 1 * k.val = k.val; omega

/-- Row p of the hidden-state window's block at point t is row 512·t + p of the hidden states. -/
theorem hid_block (c : Dev nD) (t : Fin cfg0.N) (p : Fin 512) (b : Fin 16384) (hb : b.val = t.val * 512 + p.val) (k : Fin 1024) :
    iblk m c 1 t (ix2 p k) = m ((c : Thread nD τ).loc main_arg1) (ix2 b k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = b.val; omega
  | ⟨1, _⟩ => show win0_1.index t (1 : Fin 2) * 1024 + 1 * k.val = k.val; omega

/-- Row p of the cell-state window's block at point t is row 512·t + p of the cell states. -/
theorem cell_block (c : Dev nD) (t : Fin cfg0.N) (p : Fin 512) (b : Fin 16384) (hb : b.val = t.val * 512 + p.val) (k : Fin 1024) :
    iblk m c 2 t (ix2 p k) = m ((c : Thread nD τ).loc main_arg2) (ix2 b k) := by
  obtain ⟨-, -, -, -, e0, e1, -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 512 + 1 * p.val = b.val; omega
  | ⟨1, _⟩ => show win0_2.index t (1 : Fin 2) * 1024 + 1 * k.val = k.val; omega

/-- The weight window's block at any point is the whole stack. -/
theorem stack_block (c : Dev nD) (t : Fin cfg0.N) (k : Fin 2048) (q : Fin 4096) :
    iblk m c 3 t (ix2 k q) = (V m c main_v5 : S2048x4096.Idx → EReal) (ix2 k q) := by
  obtain ⟨-, -, -, -, -, -, e0, e1, -⟩ := idx_facts t
  show V m c main_v5 (((cfg0.win 3).blk t).view.emb (ix2 k q)) = _
  refine congrArg _ (funext fun a => Fin.ext ?_)
  match a with
  | ⟨0, _⟩ => show win0_3.index t (0 : Fin 2) * 2048 + 1 * k.val = k.val; omega
  | ⟨1, _⟩ => show win0_3.index t (1 : Fin 2) * 4096 + 1 * q.val = q.val; omega

/-- The bias window's block at any point is the whole bias row. -/
theorem bias_block (c : Dev nD) (t : Fin cfg0.N) (q : Fin 4096) :
    iblk m c 4 t (ix2 (0 : Fin 1) q) = (V m c main_v8 : S1x4096.Idx → EReal) (ix2 (0 : Fin 1) q) := by
  obtain ⟨-, -, -, -, -, -, -, -, e0, e1, -⟩ := idx_facts t
  show V m c main_v8 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 4096 + 1 * q.val = q.val; omega

/-- The body's pre-activation block at point t, entry (p, g·1024 + h), is the pre-activation of batch row 512·t + p,
    gate g, unit h. -/
theorem gate_entry (c : Dev nD) (t : Fin cfg0.N) (y : S512x4096.Idx) (g : Fin 4) (h : Fin 1024)
    (hq : (y 1).val = g.val * 1024 + h.val) (b : Fin 16384) (hb : b.val = t.val * 512 + (y 0).val) :
    k0_pay1 (F := Ideal) (iblk m c 0 t) (iblk m c 1 t) (iblk m c 3 t) (iblk m c 4 t) y
      = pre (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) b g h := by
  rw [eq_ix2 y]
  exact Kern.pay1_eq (iblk m c 0 t) (iblk m c 1 t) (iblk m c 3 t) (iblk m c 4 t) (y 0) (y 1)
    (fun k => m ((c : Thread nD τ).loc main_arg0) (ix2 b k)) (fun k => m ((c : Thread nD τ).loc main_arg1) (ix2 b k))
    (fun k => m ((c : Thread nD τ).loc main_arg3) (ix3 g h k)) (fun k => m ((c : Thread nD τ).loc main_arg5) (ix3 g h k))
    (m ((c : Thread nD τ).loc main_arg4) (ix2 g h)) (m ((c : Thread nD τ).loc main_arg6) (ix2 g h))
    (fun k => in_block m c t (y 0) b hb k) (fun k => hid_block m c t (y 0) b hb k)
    (fun k => (stack_block m c t _ (y 1)).trans (Host.stack_upper m c k g h (y 1) hq))
    (fun k => (stack_block m c t _ (y 1)).trans (Host.stack_lower m c k g h (y 1) hq))
    ((bias_block m c t (y 1)).trans (Host.bias_at m c g h (y 1) hq))

end Cert.Lstm.Blocks

end
-- ==== Proof.Blocks.lean ====
/-
  From blocks to whole arrays: after the kernel's run its two result arrays are the new hidden state and the new cell
  state of `Cert.Lstm`.

  Point t of the 32-point grid writes back, to each result, rows 512·t … 512·t + 511. What it writes at entry (p, h) is
  the body's gate arithmetic over its pre-activation block at (p, h + g·1024) for the four gates g — which is the
  specification's pre-activation at batch row 512·t + p — and the cell-state block at (p, h): so the block written is
  the restriction of the specification's array. The 32 blocks of 512 rows cover all 16384 rows (row r is in block
  r / 512), so each result array is the specification's array everywhere.
-/
import proofs.«139506_j19885698580623_2_alg».proof.Proof.GateEntry

noncomputable section

namespace Cert.Lstm.Blocks

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The new cell state of the launch contents, as an array of the second result's type. -/
abbrev cellOf (c : Dev nD) : S16384x1024.Idx → EReal := cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The new hidden state of the launch contents, as an array of the first result's type. -/
abbrev hiddenOf (c : Dev nD) : S16384x1024.Idx → EReal := hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point t writes back to the second result is block t of the new cell state. -/
theorem cell_flushed (c : Dev nD) (t : Fin cfg0.N) :
    (dats m 0 c).flushed 6 t = ((cfg0.win 6).blk t).view.read (Elt Ideal) (cellOf m c) := by
  rw [Value.flushed6]
  unfold out0_6
  simp only [View.ld_unit_zero (S := S512x1024) zero_offsets, View.ld_unit_zero (S := S2048x4096) zero_offsets,
    View.ld_unit_zero (S := S1x4096) zero_offsets]
  obtain ⟨-, -, -, -, -, -, -, -, -, -, -, -, e0, e1⟩ := idx_facts t
  funext j
  have hj0 : (j 0).val < 512 := (j 0).isLt
  have hj1 : (j 1).val < 1024 := (j 1).isLt
  refine Eq.trans (Value.canon6_eq (F := Ideal) (iblk m c 0 t) (iblk m c 1 t) (iblk m c 3 t) (iblk m c 4 t) (iblk m c 2 t) j)
    (?_ : _ = cellOf m c (((cfg0.win 6).blk t).view.emb j))
  have r0 : ((((cfg0.win 6).blk t).view.emb j) 0).val = t.val * 512 + (j 0).val := by
    show win0_6.index t (0 : Fin 2) * 512 + 1 * (j 0).val = _; omega
  have r1 : ((((cfg0.win 6).blk t).view.emb j) 1).val = (j 1).val := by
    show win0_6.index t (1 : Fin 2) * 1024 + 1 * (j 1).val = _; omega
  have g0 := gate_entry m c t (Value.ix6_0 j) 0 ((((cfg0.win 6).blk t).view.emb j) 1)
    (by show (j 1).val = 0 * 1024 + _; omega) ((((cfg0.win 6).blk t).view.emb j) 0) (by show _ = t.val * 512 + (j 0).val; omega)
  have g1 := gate_entry m c t (Value.ix6_2 j) 1 ((((cfg0.win 6).blk t).view.emb j) 1)
    (by show (j 1).val + 1024 = 1 * 1024 + _; omega) ((((cfg0.win 6).blk t).view.emb j) 0) (by show _ = t.val * 512 + (j 0).val; omega)
  have g3 := gate_entry m c t (Value.ix6_3 j) 3 ((((cfg0.win 6).blk t).view.emb j) 1)
    (by show (j 1).val + 3072 = 3 * 1024 + _; omega) ((((cfg0.win 6).blk t).view.emb j) 0) (by show _ = t.val * 512 + (j 0).val; omega)
  have c2 : iblk m c 2 t (Value.ix6_1 j)
      = m ((c : Thread nD τ).loc main_arg2) (ix2 ((((cfg0.win 6).blk t).view.emb j) 0) ((((cfg0.win 6).blk t).view.emb j) 1)) := by
    rw [eq_ix2 (Value.ix6_1 j)]
    refine (cell_block m c t _ ((((cfg0.win 6).blk t).view.emb j) 0) (by show _ = t.val * 512 + (j 0).val; omega) _).trans ?_
    refine congrArg _ (funext fun a => Fin.ext ?_)
    match a with
    | ⟨0, _⟩ => rfl
    | ⟨1, _⟩ => exact r1.symm
  show FloatOps.addf (FloatOps.mulf (FloatOps.logistic (k0_pay1 (iblk m c 0 t) (iblk m c 1 t) (iblk m c 3 t) (iblk m c 4 t) (Value.ix6_0 j))) (iblk m c 2 t (Value.ix6_1 j)))
      (FloatOps.mulf (FloatOps.logistic (k0_pay1 (iblk m c 0 t) (iblk m c 1 t) (iblk m c 3 t) (iblk m c 4 t) (Value.ix6_2 j)))
        (FloatOps.tanh (k0_pay1 (iblk m c 0 t) (iblk m c 1 t) (iblk m c 3 t) (iblk m c 4 t) (Value.ix6_3 j)))) = _
  rw [g0, g1, g3, c2]
  rfl

/-- What point t writes back to the first result is block t of the new hidden state. -/
theorem hidden_flushed (c : Dev nD) (t : Fin cfg0.N) :
    (dats m 0 c).flushed 5 t = ((cfg0.win 5).blk t).view.read (Elt Ideal) (hiddenOf m c) := by
  rw [Value.flushed5]
  unfold out0_5
  simp only [View.ld_unit_zero (S := S512x1024) zero_offsets, View.ld_unit_zero (S := S2048x4096) zero_offsets,
    View.ld_unit_zero (S := S1x4096) zero_offsets]
  obtain ⟨-, -, -, -, -, -, -, -, -, -, e0, e1, -⟩ := idx_facts t
  funext j
  have hj0 : (j 0).val < 512 := (j 0).isLt
  have hj1 : (j 1).val < 1024 := (j 1).isLt
  refine Eq.trans (Value.canon5_eq (F := Ideal) (iblk m c 0 t) (iblk m c 1 t) (iblk m c 3 t) (iblk m c 4 t) (iblk m c 2 t) j)
    (?_ : _ = hiddenOf m c (((cfg0.win 5).blk t).view.emb j))
  have r0 : ((((cfg0.win 5).blk t).view.emb j) 0).val = t.val * 512 + (j 0).val := by
    show win0_5.index t (0 : Fin 2) * 512 + 1 * (j 0).val = _; omega
  have r1 : ((((cfg0.win 5).blk t).view.emb j) 1).val = (j 1).val := by
    show win0_5.index t (1 : Fin 2) * 1024 + 1 * (j 1).val = _; omega
  have g2 := gate_entry m c t (Value.ix5_0 j) 2 ((((cfg0.win 5).blk t).view.emb j) 1)
    (by show (j 1).val + 2048 = 2 * 1024 + _; omega) ((((cfg0.win 5).blk t).view.emb j) 0) (by show _ = t.val * 512 + (j 0).val; omega)
  have g0 := gate_entry m c t (Value.ix5_1 j) 0 ((((cfg0.win 5).blk t).view.emb j) 1)
    (by show (j 1).val = 0 * 1024 + _; omega) ((((cfg0.win 5).blk t).view.emb j) 0) (by show _ = t.val * 512 + (j 0).val; omega)
  have g1 := gate_entry m c t (Value.ix5_3 j) 1 ((((cfg0.win 5).blk t).view.emb j) 1)
    (by show (j 1).val + 1024 = 1 * 1024 + _; omega) ((((cfg0.win 5).blk t).view.emb j) 0) (by show _ = t.val * 512 + (j 0).val; omega)
  have g3 := gate_entry m c t (Value.ix5_4 j) 3 ((((cfg0.win 5).blk t).view.emb j) 1)
    (by show (j 1).val + 3072 = 3 * 1024 + _; omega) ((((cfg0.win 5).blk t).view.emb j) 0) (by show _ = t.val * 512 + (j 0).val; omega)
  have c2 : iblk m c 2 t (Value.ix5_2 j)
      = m ((c : Thread nD τ).loc main_arg2) (ix2 ((((cfg0.win 5).blk t).view.emb j) 0) ((((cfg0.win 5).blk t).view.emb j) 1)) := by
    rw [eq_ix2 (Value.ix5_2 j)]
    refine (cell_block m c t _ ((((cfg0.win 5).blk t).view.emb j) 0) (by show _ = t.val * 512 + (j 0).val; omega) _).trans ?_
    refine congrArg _ (funext fun a => Fin.ext ?_)
    match a with
    | ⟨0, _⟩ => rfl
    | ⟨1, _⟩ => exact r1.symm
  show FloatOps.mulf (FloatOps.logistic (k0_pay1 (iblk m c 0 t) (iblk m c 1 t) (iblk m c 3 t) (iblk m c 4 t) (Value.ix5_0 j)))
      (FloatOps.tanh (FloatOps.addf (FloatOps.mulf (FloatOps.logistic (k0_pay1 (iblk m c 0 t) (iblk m c 1 t) (iblk m c 3 t) (iblk m c 4 t) (Value.ix5_1 j))) (iblk m c 2 t (Value.ix5_2 j)))
        (FloatOps.mulf (FloatOps.logistic (k0_pay1 (iblk m c 0 t) (iblk m c 1 t) (iblk m c 3 t) (iblk m c 4 t) (Value.ix5_3 j)))
          (FloatOps.tanh (k0_pay1 (iblk m c 0 t) (iblk m c 1 t) (iblk m c 3 t) (iblk m c 4 t) (Value.ix5_4 j)))))) = _
  rw [g2, g0, g1, g3, c2]
  rfl

/-- An index of the first result is in point t's block iff each coordinate is in the block's range on its axis. -/
theorem mem_hidden_block (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v9_0).slice (win0_5.rect t)).set ↔ _
  rw [View.set_slice_whole, Rect.mem_set_unit]
  exact Iff.rfl

/-- The same for the second result. -/
theorem mem_cell_block (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v9_1).slice (win0_6.rect t)).set ↔ _
  rw [View.set_slice_whole, Rect.mem_set_unit]
  exact Iff.rfl

/-- Every index of the first result is in the block of the point its row falls in: row r is in block r / 512. -/
theorem hidden_cover (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 32 := N_0
  refine ⟨⟨(i 0).val / 512, by rw [hN]; omega⟩, flush0_5 _, ?_⟩
  obtain ⟨-, -, -, -, -, -, -, -, -, -, e0, e1, -⟩ := idx_facts ⟨(i 0).val / 512, by rw [hN]; omega⟩
  rw [mem_hidden_block]
  intro a
  match a with
  | ⟨0, _⟩ =>
    show win0_5.index _ (0 : Fin 2) * 512 ≤ (i 0).val ∧ (i 0).val < win0_5.index _ (0 : Fin 2) * 512 + 512
    rw [e0]; show (i 0).val / 512 * 512 ≤ (i 0).val ∧ (i 0).val < (i 0).val / 512 * 512 + 512; omega
  | ⟨1, _⟩ =>
    show win0_5.index _ (1 : Fin 2) * 1024 ≤ (i 1).val ∧ (i 1).val < win0_5.index _ (1 : Fin 2) * 1024 + 1024
    rw [e1]; omega

/-- The same for the second result. -/
theorem cell_cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  refine ⟨⟨(i 0).val / 512, by rw [hN]; omega⟩, flush0_6 _, ?_⟩
  obtain ⟨-, -, -, -, -, -, -, -, -, -, -, -, e0, e1⟩ := idx_facts ⟨(i 0).val / 512, by rw [hN]; omega⟩
  rw [mem_cell_block]
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 1024 ≤ (i 1).val ∧ (i 1).val < win0_6.index _ (1 : Fin 2) * 1024 + 1024
    rw [e1]; omega

/-- After the run the first result is the new hidden state. -/
theorem hidden_final (c : Dev nD) : (dats m 0 c).arrAt 5 cfg0.N = hiddenOf m c :=
  (dats m 0 c).arrAt_eq_of_cover 5 (hiddenOf m c) (fun t _ => hidden_flushed m c t) hidden_cover

/-- After the run the second result is the new cell state. -/
theorem cell_final (c : Dev nD) : (dats m 0 c).arrAt 6 cfg0.N = cellOf m c :=
  (dats m 0 c).arrAt_eq_of_cover 6 (cellOf m c) (fun t _ => cell_flushed m c t) cell_cover

/-- Every weakly fair execution of the kernel program ends with its two results at the new hidden state and the new
    cell state of the launch contents, the arguments unchanged. -/
theorem run : θ_run defs (onTc (τ := τ) (main (F := Ideal))) ⟨m, fun _ => 0, ρ⟩ fun r => ∀ c : Dev nD,
      r.2.mem ((c : Thread nD τ).loc main_v9_0) = hiddenOf m c
      ∧ r.2.mem ((c : Thread nD τ).loc main_v9_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.Lstm.Blocks

end
-- ==== Proof.lean ====
/-
  An LSTM cell step computed two ways gives the same hidden state and the same cell state, as extended reals.

  The kernel program joins the inputs and the hidden states along the columns, multiplies the joined rows by the
  input weights stacked above the recurrent weights (each transposed and flattened so that column g·1024 + h is gate
  g, unit h) and adds the sum of the two biases; the reference program contracts the inputs with the input weights,
  adds the first bias, adds the hidden states contracted with the recurrent weights, and adds the second bias. A sum
  over 2048 terms is its two halves added, and addition is commutative and associative, so the two pre-activations
  agree at every extended real: no finiteness of the inputs is used. Both programs then apply the same gate
  arithmetic — the logistic function (which the reference spells as one over one plus the exponential of the
  negation), the hyperbolic tangent, products and a sum — to the same four pre-activations and the old cell state.

  `Cert.Lstm` (CellSpec) states the step as plain mathematics; RefIsSpec reads the reference's two results as its
  arrays; KernelEntry, HostPrep, GateEntry and Blocks read the kernel's two result arrays, block by block over the
  32 grid points, as the same arrays. Each program's frame is its run with the results dropped, and the kernel's
  idealization rewrote nothing.
-/
import proofs.«139506_j19885698580623_2_alg».proof.Defs
import proofs.«139506_j19885698580623_2_alg».proof.Proof.Gen.Kernel
import proofs.«139506_j19885698580623_2_alg».proof.Proof.Gen.Kernel.Skeleton
import proofs.«139506_j19885698580623_2_alg».proof.Proof.Gen.Kernel.Launch
import proofs.«139506_j19885698580623_2_alg».proof.Proof.Gen.Kernel.Points
import proofs.«139506_j19885698580623_2_alg».proof.Proof.Gen.Kernel.Frame
import proofs.«139506_j19885698580623_2_alg».proof.Proof.Gen.KernelIdeal
import proofs.«139506_j19885698580623_2_alg».proof.Proof.Gen.KernelIdeal.Skeleton
import proofs.«139506_j19885698580623_2_alg».proof.Proof.Gen.KernelIdeal.Launch
import proofs.«139506_j19885698580623_2_alg».proof.Proof.Gen.KernelIdeal.Points
import proofs.«139506_j19885698580623_2_alg».proof.Proof.Gen.KernelIdeal.Frame
import proofs.«139506_j19885698580623_2_alg».proof.Proof.Gen.ReferenceIdeal
import proofs.«139506_j19885698580623_2_alg».proof.Proof.Gen.Pre_finite_inputs
import proofs.«139506_j19885698580623_2_alg».proof.Proof.Gen.KernelIdeal.Value
import proofs.«139506_j19885698580623_2_alg».proof.Proof.Gen.ReferenceIdeal.Run
import proofs.«139506_j19885698580623_2_alg».proof.Proof.Gen.ReferenceIdeal.Read
import proofs.«139506_j19885698580623_2_alg».proof.Proof.RefIsSpec
import proofs.«139506_j19885698580623_2_alg».proof.Proof.Blocks
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the seven arguments both programs end with the new hidden state and the new cell state
    of those arguments. -/
theorem algebraic : Cert.algebraic_KernelIdeal_ReferenceIdeal := by
  intro m ρ m' ρ' _ hagree
  refine ⟨fun c => Cert.Lstm.Blocks.hiddenOf m c, fun c => Cert.Lstm.Blocks.cellOf m c, Cert.Lstm.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.Lstm.Ref.hidden_eq, (hagree c).1, (hagree c).2.1, (hagree c).2.2.1,
      (hagree c).2.2.2.1, (hagree c).2.2.2.2.1, (hagree c).2.2.2.2.2.1, (hagree c).2.2.2.2.2.2]
  · rw [Cert.ReferenceIdeal.Read.val_main_v38_eq, Cert.Lstm.Ref.cell_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
